-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : FVec F S800000 .f32) (main_arg2 : FVec F S64x64 .f32) (main_arg3 : FVec F S64 .f32) (main_arg4 : FVec F S64x64 .f32) (main_arg5 : FVec F S64 .f32) (main_arg6 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S2x800000 : Shape := ⟨2, ![2, 800000]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩
abbrev S10000x64 : Shape := ⟨2, ![10000, 64]⟩
abbrev S10000x1 : Shape := ⟨2, ![10000, 1]⟩
abbrev S1x64 : Shape := ⟨2, ![1, 64]⟩

abbrev nBuf : Space → Nat
  | .hbm => 44
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S800000, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S800000x64, .f32⟩
  | .hbm, ⟨22, _⟩ => ⟨S_, .f32⟩
  | .hbm, ⟨23, _⟩ => ⟨S50000x64, .f32⟩
  | .hbm, ⟨24, _⟩ => ⟨S800000x1, .i32⟩
  | .hbm, ⟨25, _⟩ => ⟨S50000x64, .f32⟩
  | .hbm, ⟨26, _⟩ => ⟨S1x64, .f32⟩
  | .hbm, ⟨27, _⟩ => ⟨S50000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S1x64, .f32⟩
  | .hbm, ⟨43, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x1, .f32⟩
  | .local _ .vmem, ⟨15, _⟩ => ⟨S10000x1, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S800000_S800000x1 : S800000.ShapeCasts S800000x1
  bcast_S_S800000 : S_.BroadcastsInDim S800000 (![] : Fin 0 → Fin S800000.rank)
  bcast_S800000_S800000x1_0 : S800000.BroadcastsInDim S800000x1 (![0] : Fin 1 → Fin S800000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S50000x64 : S_.BroadcastsInDim S50000x64 (![] : Fin 0 → Fin S50000x64.rank)
  shapeCasts_S64_S1x64 : S64.ShapeCasts S1x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S800000x64.size a
  hwx0_0 : ∀ i : grid0.Coords, EltTy.bits .f32 = 32 ∨ (Rect.block (s := S800000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S800000x1.size a
  hwx0_1 : ∀ i : grid0.Coords, EltTy.bits .f32 = 32 ∨ (Rect.block (s := S800000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S800000x64.size a
  hwx0_2 : ∀ i : grid0.Coords, EltTy.bits .f32 = 32 ∨ (Rect.block (s := S800000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S800000x64.size a
  hwx2_0 : ∀ i : grid2.Coords, EltTy.bits .f32 = 32 ∨ (Rect.block (s := S800000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S800000x1.size a
  hwx2_1 : ∀ i : grid2.Coords, EltTy.bits .f32 = 32 ∨ (Rect.block (s := S800000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S800000x64.size a
  hwx2_2 : ∀ i : grid2.Coords, EltTy.bits .f32 = 32 ∨ (Rect.block (s := S800000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S50000x64.size a
  hwx3_3 : ∀ i : grid3.Coords, EltTy.bits .f32 = 32 ∨ (Rect.block (s := S50000x64) S10000x64.size (cc3_transform_3 i) (hinb3_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v11) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v28) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S2x800000 : Shape := ⟨2, ![2, 800000]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩

abbrev nBuf : Space → Nat
  | .hbm => 54
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S800000x64, .f32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S50000x64, .f32⟩
  | .hbm, ⟨28, _⟩ => ⟨S1x64, .f32⟩
  | .hbm, ⟨29, _⟩ => ⟨S50000x64, .f32⟩
  | .hbm, ⟨30, _⟩ => ⟨S50000x64, .f32⟩
  | .hbm, ⟨31, _⟩ => ⟨S_, .f32⟩
  | .hbm, ⟨32, _⟩ => ⟨S50000x64, .f32⟩
  | .hbm, ⟨33, _⟩ => ⟨S50000x64, .f32⟩
  | .hbm, ⟨34, _⟩ => ⟨S800000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S800000x64, .f32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel's run, with every buffer named.

  The program is four kernel launches among four stretches of host operations.  Its frame argument already
  follows the buffer contents through the eight segments: the launch memory, then after each stretch the
  stretch's operations applied, and after each launch the launch's arrays at what its write-backs leave.
  The frame only reads the argument arrays off the last of these boundaries; here the same run is read at
  EVERY unscoped buffer, so that the result array can be read too: every weakly fair execution terminates,
  and each unscoped buffer ends at the last boundary's contents.
-/
import proofs.«171752_j16776142258589_2_alg».proof.Defs
import proofs.«171752_j16776142258589_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, and every unscoped buffer of every core ends at
    the contents of the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The same run read at the result array and the seven argument arrays. -/
theorem run_result : θ_run defs (onTc (τ := τ) (main (F := F))) ⟨m, fun _ => 0, ρ⟩ (fun r => ∀ c : Dev nD,
      r.2.mem ((c.tc : Thread nD τ).loc main_v30) = W8 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v30 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)
    (run_all m ρ)

end Cert.KernelIdeal.Whole

end
-- ==== Proof.LibColumns.lean ====
/-
  Two layout readings used by every stage: a vector recast as a one-column matrix read at `(p, 0)`, and a scalar
  broadcast to any shape read at any index.
-/
import Idealize.ShloMosaic.Lib.ValueIdx
import Idealize.ShloMosaic.Lib.Pipeline.Value

noncomputable section

namespace Cert.Sage.Layout

open Idealize.ShloMosaic Idealize.ShloMosaic.ValueIdx

/-- An `[n]` array cast to `[n, 1]` reads, at `(p, 0)`, the operand at `p`. -/
theorem shapeCast_n_n1_apply {α : Type} {n : ℕ} (x : (⟨1, ![n]⟩ : Shape).Idx → α) (h : (⟨1, ![n]⟩ : Shape).ShapeCasts ⟨2, ![n, 1]⟩)
    (p : Fin n) : shapeCast ⟨2, ![n, 1]⟩ x h (ix2 p (0 : Fin 1)) = x (ix1 p) :=
  shapeCast_apply x h _ _ (by
    rw [Shape.rowMajor_val_one, Shape.rowMajor_val_two]
    show p.val = p.val * 1 + 0
    omega)

/-- A scalar broadcast to a shape reads, at every index, the scalar. -/
theorem broadcastInDim_scalar_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

end Cert.Sage.Layout

end
-- ==== Proof.LibRowCast.lean ====
/-
  A vector recast as a one-row matrix, read at an entry.

  Recasting a vector of `n` entries to the shape `[1, n]` moves no entry: the one row's entry `k` is the
  vector's entry `k` (both sit at row-major position `k`).  Any length, any element type.
-/
import Idealize.ShloMosaic.Lib.ValueIdx
import Idealize.ShloMosaic.Lib.Pipeline.Value

noncomputable section

namespace Cert.Lib.RowCast

open Idealize.ShloMosaic Idealize.ShloMosaic.ValueIdx

/-- An `[n]` array cast to `[1, n]` reads, at `(0, k)`, the operand at `k`. -/
theorem shapeCast_n_1n_apply {α : Type} {n : ℕ} (x : (⟨1, ![n]⟩ : Shape).Idx → α)
    (h : (⟨1, ![n]⟩ : Shape).ShapeCasts ⟨2, ![1, n]⟩) (k : Fin n) :
    shapeCast ⟨2, ![1, n]⟩ x h (ix2 (0 : Fin 1) k) = x (ix1 k) :=
  shapeCast_apply x h _ _ (by
    rw [Shape.rowMajor_val_one, Shape.rowMajor_val_two]
    show k.val = 0 * n + k.val
    omega)

end Cert.Lib.RowCast

end
-- ==== Proof.Stages.lean ====
/-
  The mathematics of one graph-convolution layer, as functions of whole arrays over the extended reals.

  There are E = 800000 edges, N = 50000 nodes and 64 features.  A layer gathers one node row per edge,
  scales the row by the edge's weight (`messages`), sums the scaled rows into the rows of their destination
  nodes, and applies a dense map: a 64 x 64 matrix product plus a bias row (`affine`), followed in the first
  layer by the positive part (`relu`).  The gather and the scatter-sum are the same operations in both
  programs and are never opened; what differs is how the three pointwise-and-contraction stages are written,
  and each of those is stated here once, index by index.

  Two variants carry the layouts a kernel sees: the weights as an E x 1 column (`scaleCol`) and the bias as a
  1 x 64 row (`affineRow`); recasting a vector as a column or as a row moves no entry, so they are the plain
  stages of the vectors.
-/
import Idealize.ShloMosaic.PureOps.Ideal.Laws
import Idealize.ShloMosaic.Lib.ValueIdx
import Idealize.ShloMosaic.Lib.Pipeline.Value
import proofs.«171752_j16776142258589_2_alg».proof.Proof.LibColumns
import proofs.«171752_j16776142258589_2_alg».proof.Proof.LibRowCast

noncomputable section

namespace Cert.GraphConv

open Idealize.ShloMosaic Idealize.ShloMosaic.ValueIdx

/-- Edge e's gathered row times edge e's weight. -/
def messages (g : FVec Ideal ⟨2, ![800000, 64]⟩ .f32) (w : FVec Ideal ⟨1, ![800000]⟩ .f32) :
    FVec Ideal ⟨2, ![800000, 64]⟩ .f32 :=
  fun i => g i * w (ix1 (i 0))

/-- The same with the weights laid out as a column. -/
def scaleCol (g : FVec Ideal ⟨2, ![800000, 64]⟩ .f32) (wc : FVec Ideal ⟨2, ![800000, 1]⟩ .f32) :
    FVec Ideal ⟨2, ![800000, 64]⟩ .f32 :=
  fun i => g i * wc (ix2 (i 0) (0 : Fin 1))

/-- Row n of x times the matrix, plus the bias: entry (n, d) is the sum over k of x[n,k] W[k,d], plus b[d]. -/
def affine (x : FVec Ideal ⟨2, ![50000, 64]⟩ .f32) (W : FVec Ideal ⟨2, ![64, 64]⟩ .f32) (b : FVec Ideal ⟨1, ![64]⟩ .f32) :
    FVec Ideal ⟨2, ![50000, 64]⟩ .f32 :=
  fun i => (∑ k : Fin 64, x (ix2 (i 0) k) * W (ix2 k (i 1))) + b (ix1 (i 1))

/-- The same with the bias laid out as a row. -/
def affineRow (x : FVec Ideal ⟨2, ![50000, 64]⟩ .f32) (W : FVec Ideal ⟨2, ![64, 64]⟩ .f32) (br : FVec Ideal ⟨2, ![1, 64]⟩ .f32) :
    FVec Ideal ⟨2, ![50000, 64]⟩ .f32 :=
  fun i => (∑ k : Fin 64, x (ix2 (i 0) k) * W (ix2 k (i 1))) + br (ix2 (0 : Fin 1) (i 1))

/-- The positive part, entry by entry (the maximum with the value of the zero word). -/
def relu (y : FVec Ideal ⟨2, ![50000, 64]⟩ .f32) : FVec Ideal ⟨2, ![50000, 64]⟩ .f32 :=
  fun i => max (y i) (Ideal.ofBits .f32 0x00000000#32)

/-- Weights recast as a column scale the rows as the weights do. -/
theorem scaleCol_cast (g : FVec Ideal ⟨2, ![800000, 64]⟩ .f32) (w : FVec Ideal ⟨1, ![800000]⟩ .f32)
    (h : (⟨1, ![800000]⟩ : Shape).ShapeCasts ⟨2, ![800000, 1]⟩) :
    scaleCol g (shapeCast ⟨2, ![800000, 1]⟩ w h) = messages g w := by
  funext i
  unfold scaleCol messages
  rw [Cert.Sage.Layout.shapeCast_n_n1_apply w h (i 0)]

/-- A bias recast as a row is added as the bias is. -/
theorem affineRow_cast (x : FVec Ideal ⟨2, ![50000, 64]⟩ .f32) (W : FVec Ideal ⟨2, ![64, 64]⟩ .f32) (b : FVec Ideal ⟨1, ![64]⟩ .f32)
    (h : (⟨1, ![64]⟩ : Shape).ShapeCasts ⟨2, ![1, 64]⟩) :
    affineRow x W (shapeCast ⟨2, ![1, 64]⟩ b h) = affine x W b := by
  funext i
  unfold affineRow affine
  rw [Cert.Lib.RowCast.shapeCast_n_1n_apply b h (i 1)]

end Cert.GraphConv

end
-- ==== Proof.LibMosaicRows.lean ====
/-
  Four readings of a kernel's row-wise vector operations at one entry, at the ideal instance, for any sizes.

  * col_repeated: a one-column matrix [a, 1] broadcast to [a, b] reads, at (p, c), the column's entry p — a row's
    maximum or sum, or a per-row scale, spread over the row.
  * rowSum_at: the sum reduction of a matrix [a, b] over its columns, from the zero word, reads at row p the sum over
    the b columns of the row's entries.
  * rowMax_at: the maximum reduction over the columns, from the word of -∞, reads at row p the fold of max from that
    word's value over the row's entries.
  * exp_at: the exponential of a vector reads, at an index, the exponential of the entry.
-/
import Idealize.ShloMosaic.PureOps.Ideal.Laws
import Idealize.ShloMosaic.Lib.ValueIdx
import Idealize.ShloMosaic.Lib.Pipeline.Value

noncomputable section

namespace Cert.Lib.MosaicRows

open Idealize.ShloMosaic Idealize.ShloMosaic.ValueIdx

/-- A one-column matrix broadcast across b columns reads, at (p, c), the column's entry p. -/
theorem col_repeated {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of row p with column k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- The sum over the columns, from the zero word, at row p: the sum of the row's entries. -/
theorem rowSum_at {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

/-- The maximum over the columns, from the word of -∞, at row p: the fold of max from -∞ over the row's entries. -/
theorem rowMax_at {a b : ℕ} (src : FVec Ideal ⟨2, ![a, b]⟩ .f32)
    (h : (⟨2, ![a, b]⟩ : Shape).Reduces [1] (⟨1, ![a]⟩ : Shape)) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  have hf : (src ∘ h.lift (ix1 p)) = fun k : Fin b => src (ix2 p k) := funext fun k => congrArg src (lift_row h p k)
  exact congrArg (fun f => Finset.fold max (Ideal.ofBits .f32 0xFF800000#32) f (Finset.univ : Finset (Fin b))) hf

/-- The exponential of a vector at an index is the exponential of the entry. -/
theorem exp_at {s : Shape} (v : FVec Ideal s .f32) (i : s.Idx) : exp v i = Ideal.exp (v i) := rfl

end Cert.Lib.MosaicRows

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.KernelBlocks.lean ====
/-
  What each of the four kernel bodies stores, read at one entry of a block, on the extended reals.

  The two scaling launches store, at entry (p, q) of a 10000 x 64 block, the gathered block's entry times the
  weight column's entry of row p.  The two dense launches store row p of the block times column q of the
  64 x 64 matrix, summed over the contracted axis, plus the bias row's entry q; the first of them then takes the
  maximum with zero.  Rounding the operands to the matrix unit's format does nothing on the extended reals, and
  the product accumulates into zero, so the contraction is the plain sum of products.
-/
import proofs.«171752_j16776142258589_2_alg».proof.Proof.Gen.KernelIdeal.Skeleton
import proofs.«171752_j16776142258589_2_alg».proof.Proof.LibMosaicRows
import proofs.«171752_j16776142258589_2_alg».proof.Proof.LibSplitContraction
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Blocks

open Cert.KernelIdeal Cert.KernelIdeal.Gen Idealize.ShloMosaic Idealize.ShloMosaic.ValueIdx

/-- The product's operand indices at an output entry and a contraction index: the left operand's row is the
    output's, its column the contraction index; the right operand's row the contraction index, its column the
    output's. -/
theorem dot_lhs0 (j : S10000x64.Idx) (q : dot_S10000x64_S64x64_S10000x64_1_0_0_1_n_n.contr.Idx) :
    (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot_lhs1 (j : S10000x64.Idx) (q : dot_S10000x64_S64x64_S10000x64_1_0_0_1_n_n.contr.Idx) :
    (dot_S10000x64_S64x64_S10000x64_1_0_0_1_n_n.lhsIdx j q 1).val = (q ⟨0, by decide⟩).val :=
  dot_S10000x64_S64x64_S10000x64_1_0_0_1_n_n.lhsIdx_val_of_single rfl j q
theorem dot_rhs0 (j : S10000x64.Idx) (q : dot_S10000x64_S64x64_S10000x64_1_0_0_1_n_n.contr.Idx) :
    (dot_S10000x64_S64x64_S10000x64_1_0_0_1_n_n.rhsIdx j q 0).val = (q ⟨0, by decide⟩).val :=
  dot_S10000x64_S64x64_S10000x64_1_0_0_1_n_n.rhsIdx_val_of_single rfl j q
theorem dot_rhs1 (j : S10000x64.Idx) (q : dot_S10000x64_S64x64_S10000x64_1_0_0_1_n_n.contr.Idx) :
    (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Launch 0's stored value at entry (p, q) of a block: the gathered block's entry times the weight column's
    entry of row p (the recasts are to the same shape; the column is spread over the 64 lanes). -/
theorem scale_entry0 (x0 : FVec Ideal S10000x64 .f32) (x1 : FVec Ideal S10000x1 .f32) (p : Fin 10000) (q : Fin 64) :
    k0_pay1 (F := Ideal) x0 x1 (ix2 p q) = x0 (ix2 p q) * x1 (ix2 p (0 : Fin 1)) := by
  unfold k0_pay1
  refine (mulf_apply _ _ _).trans ?_
  rw [shapeCast_self, shapeCast_self]
  exact congrArg (x0 (ix2 p q) * ·) (Cert.Lib.MosaicRows.col_repeated x1 broadcasts_S10000x1_S10000x64 p q)

/-- Launch 2's stored value at entry (p, q) of a block: the gathered block's entry times the weight column's
    entry of row p (the recasts are to the same shape; the column is spread over the 64 lanes). -/
theorem scale_entry2 (x0 : FVec Ideal S10000x64 .f32) (x1 : FVec Ideal S10000x1 .f32) (p : Fin 10000) (q : Fin 64) :
    k2_pay1 (F := Ideal) x0 x1 (ix2 p q) = x0 (ix2 p q) * x1 (ix2 p (0 : Fin 1)) := by
  unfold k2_pay1
  refine (mulf_apply _ _ _).trans ?_
  rw [shapeCast_self, shapeCast_self]
  exact congrArg (x0 (ix2 p q) * ·) (Cert.Lib.MosaicRows.col_repeated x1 broadcasts_S10000x1_S10000x64 p q)

/-- Launch 1's stored value at entry (p, q) of a block: row p of the block times column q of the matrix, summed
    over the 64 contracted entries (the roundings to the matrix unit's format are the identity on the extended
    reals; the accumulator starts at zero), plus the bias row's entry q, then the maximum with zero. -/
theorem affine_entry1 (x0 : FVec Ideal S10000x64 .f32) (x1 : FVec Ideal S64x64 .f32) (x2 : FVec Ideal S1x64 .f32) (p : Fin 10000) (q : Fin 64) :
    k1_pay1 (F := Ideal) x0 x1 x2 (ix2 p q)
      = max ((∑ k : Fin 64, x0 (ix2 p k) * x1 (ix2 k q)) + x2 (ix2 (0 : Fin 1) q)) (Ideal.ofBits .f32 0x00000000#32) := by
  unfold k1_pay1
  refine (maximumf_apply _ _ _).trans ?_
  refine congrArg (max · (Ideal.ofBits .f32 0x00000000#32)) ?_
  refine (addf_apply _ _ _).trans ?_
  refine congrArg₂ (· + ·) ?_ ?_
  · refine (Cert.Lib.SplitContraction.matmul_zero_at dot_S10000x64_S64x64_S10000x64_1_0_0_1_n_n rfl rfl
      dot_lhs0 dot_lhs1 dot_rhs0 dot_rhs1 none _ _ p q).trans ?_
    rw [shapeCast_self]
    rfl
  · rw [shapeCast_self]
    exact broadcastTo_1b_ab_apply x2 broadcasts_S1x64_S10000x64 p q

/-- Launch 3's stored value at entry (p, q) of a block: row p of the block times column q of the matrix, summed
    over the 64 contracted entries (the roundings to the matrix unit's format are the identity on the extended
    reals; the accumulator starts at zero), plus the bias row's entry q. -/
theorem affine_entry3 (x0 : FVec Ideal S10000x64 .f32) (x1 : FVec Ideal S64x64 .f32) (x2 : FVec Ideal S1x64 .f32) (p : Fin 10000) (q : Fin 64) :
    k3_pay1 (F := Ideal) x0 x1 x2 (ix2 p q)
      = (∑ k : Fin 64, x0 (ix2 p k) * x1 (ix2 k q)) + x2 (ix2 (0 : Fin 1) q) := by
  unfold k3_pay1

  refine (addf_apply _ _ _).trans ?_
  refine congrArg₂ (· + ·) ?_ ?_
  · refine (Cert.Lib.SplitContraction.matmul_zero_at dot_S10000x64_S64x64_S10000x64_1_0_0_1_n_n rfl rfl
      dot_lhs0 dot_lhs1 dot_rhs0 dot_rhs1 none _ _ p q).trans ?_
    rw [shapeCast_self]
    rfl
  · rw [shapeCast_self]
    exact broadcastTo_1b_ab_apply x2 broadcasts_S1x64_S10000x64 p q

end Cert.KernelIdeal.Blocks

end
-- ==== Proof.Region0.lean ====
/-
  Launch 0 (a scaling launch) as one function of the arrays it is entered with.

  The grid has 80 points; point t handles rows 10000 t .. 10000 t + 9999 of all three windows (the gathered rows,
  the weight column, the output), and every point writes its output block back.  What point t writes back is
  therefore block t of "each gathered row times its weight", and since the 80 blocks tile the 800000 rows the
  output array ends holding that function everywhere.
-/
import proofs.«171752_j16776142258589_2_alg».proof.Proof.Gen.KernelIdeal.Frame
import proofs.«171752_j16776142258589_2_alg».proof.Proof.KernelBlocks
import proofs.«171752_j16776142258589_2_alg».proof.Proof.Stages

set_option maxRecDepth 16384

noncomputable section

namespace Cert.KernelIdeal.Region0

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The three index maps, decided over the grid: at point t every window's block index is (t, 0). -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the scaled rows. -/
theorem written_back (c : Dev nD) (t : Fin cfg0.N) :
    (dat0 V c).flushed 2 t = ((cfg0.win 2).blk t).view.read (Elt Ideal) (scaleCol (V c main_v11) (V c main_v4)) := by
  show (cfg0.win 2).cut (grid0.coords t) ((dat0 V c).after 2 t) = _
  rw [after0_2]
  unfold out0_2
  rw [View.canon_unit_zero origin]
  simp only [View.ld_unit_zero (S := S10000x64) origin, View.ld_unit_zero (S := S10000x1) origin]
  obtain ⟨e0, e1, e2, e3, e4, e5⟩ := block_index t
  refine funext fun (j : S10000x64.Idx) => ?_
  obtain ⟨p, q, rfl⟩ : ∃ (p : Fin 10000) (q : Fin 64), j = ix2 p q := ⟨j 0, j 1, eq_ix2 j⟩
  refine (Blocks.scale_entry0 (iblk0 V c 0 t) (iblk0 V c 1 t) p q).trans ?_
  have hp : p.val < 10000 := p.isLt
  have hq : q.val < 64 := q.isLt
  have h0 : ((cfg0.win 0).blk t).view.emb (ix2 p q) = ((cfg0.win 2).blk t).view.emb (ix2 p q) := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * q.val = win0_2.index t (1 : Fin 2) * 64 + 1 * q.val; omega
  have h1 : ((cfg0.win 1).blk t).view.emb (ix2 p (0 : Fin 1)) = ix2 ((((cfg0.win 2).blk t).view.emb (ix2 p q)) 0) (0 : Fin 1) := by
    funext a; apply Fin.ext
    match a with
    | ⟨0, _⟩ => show win0_1.index t (0 : Fin 2) * 10000 + 1 * p.val = win0_2.index t (0 : Fin 2) * 10000 + 1 * p.val; omega
    | ⟨1, _⟩ => show win0_1.index t (1 : Fin 2) * 1 + 1 * 0 = 0; omega
  have key : ∀ (g : FVec Ideal S800000x64 .f32) (wc : FVec Ideal S800000x1 .f32),
      g (((cfg0.win 0).blk t).view.emb (ix2 p q)) * wc (((cfg0.win 1).blk t).view.emb (ix2 p (0 : Fin 1)))
        = scaleCol g wc (((cfg0.win 2).blk t).view.emb (ix2 p q)) := by
    intro g wc
    rw [h0, h1]
    rfl
  exact key (V c main_v11) (V c main_v4)

/-- An index of the output array is in point t's block iff each coordinate is in the block's range. -/
theorem mem_block (t : Fin cfg0.N) (i : S800000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v12).slice (win0_2.rect t)).set ↔ _
  rw [View.set_slice_whole, Rect.mem_set_unit]
  exact Iff.rfl

/-- Row r of the output is covered by point r / 10000. -/
theorem covered (i : S800000x64.Idx) : ∃ t : Fin cfg0.N, (cfg0.win 2).flush t = true ∧ i ∈ ((cfg0.win 2).blk t).view.set := by
  have hi0 : (i 0).val < 800000 := (i 0).isLt
  have hi1 : (i 1).val < 64 := (i 1).isLt
  have ht : (i 0).val / 10000 < grid0.N := by rw [N_0]; omega
  obtain ⟨-, -, -, -, e4, e5⟩ := block_index ⟨(i 0).val / 10000, ht⟩
  refine ⟨⟨(i 0).val / 10000, ht⟩, flush0_2 _, ?_⟩
  rw [mem_block]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [e5]; omega

/-- The output array after the launch: each entered row times its entered weight. -/
theorem array_after (c : Dev nD) : (dat0 V c).arrAt 2 cfg0.N = scaleCol (V c main_v11) (V c main_v4) :=
  (dat0 V c).arrAt_eq_of_cover 2 _ (fun t _ => written_back V c t) covered

end Cert.KernelIdeal.Region0

end
-- ==== Proof.Region1.lean ====
/-
  Launch 1 (a dense launch) as one function of the arrays it is entered with.

  The grid has 5 points; point t handles rows 10000 t .. 10000 t + 9999 of the input and of the output, while the
  64 x 64 matrix and the 1 x 64 bias row are the same whole blocks at every point.  Every point writes its output
  block back.  What point t writes back is therefore block t of "row times matrix plus bias, positive part", and since the
  five blocks tile the 50000 rows the output array ends holding that function everywhere.
-/
import proofs.«171752_j16776142258589_2_alg».proof.Proof.Gen.KernelIdeal.Frame
import proofs.«171752_j16776142258589_2_alg».proof.Proof.KernelBlocks
import proofs.«171752_j16776142258589_2_alg».proof.Proof.Stages

set_option maxRecDepth 16384

noncomputable section

namespace Cert.KernelIdeal.Region1

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The four index maps, decided over the grid: at point t the input's and the output's block index is (t, 0),
    the matrix's and the bias row's is (0, 0). -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The dense stage of the layer, as the launch computes it. -/
def stage (x : FVec Ideal S50000x64 .f32) (W : FVec Ideal S64x64 .f32) (br : FVec Ideal S1x64 .f32) : FVec Ideal S50000x64 .f32 :=
  relu (affineRow x W br)

/-- What point t writes back is block t of the dense stage. -/
theorem written_back (c : Dev nD) (t : Fin cfg1.N) :
    (dat1 V c).flushed 3 t = ((cfg1.win 3).blk t).view.read (Elt Ideal) (stage (V c main_v15) (V c main_arg2) (V c main_v16)) := by
  show (cfg1.win 3).cut (grid1.coords t) ((dat1 V c).after 3 t) = _
  rw [after1_3]
  unfold out1_3
  rw [View.canon_unit_zero origin]
  simp only [View.ld_unit_zero (S := S10000x64) origin, View.ld_unit_zero (S := S64x64) origin, View.ld_unit_zero (S := S1x64) origin]
  obtain ⟨e0, e1, e2, e3, e4, e5, e6, e7⟩ := block_index t
  refine funext fun (j : S10000x64.Idx) => ?_
  obtain ⟨p, q, rfl⟩ : ∃ (p : Fin 10000) (q : Fin 64), j = ix2 p q := ⟨j 0, j 1, eq_ix2 j⟩
  refine (Blocks.affine_entry1 (iblk1 V c 0 t) (iblk1 V c 1 t) (iblk1 V c 2 t) p q).trans ?_
  have hp : p.val < 10000 := p.isLt
  have hq : q.val < 64 := q.isLt
  have h0 : ∀ k : Fin 64, ((cfg1.win 0).blk t).view.emb (ix2 p k) = ix2 ((((cfg1.win 3).blk t).view.emb (ix2 p q)) 0) k := by
    intro k
    have hk : k.val < 64 := k.isLt
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * k.val = k.val; omega
  have h1 : ∀ k : Fin 64, ((cfg1.win 1).blk t).view.emb (ix2 k q) = ix2 k ((((cfg1.win 3).blk t).view.emb (ix2 p q)) 1) := by
    intro k
    have hk : k.val < 64 := k.isLt
    funext a; apply Fin.ext
    match a with
    | ⟨0, _⟩ => show win1_1.index t (0 : Fin 2) * 64 + 1 * k.val = k.val; omega
    | ⟨1, _⟩ => show win1_1.index t (1 : Fin 2) * 64 + 1 * q.val = win1_3.index t (1 : Fin 2) * 64 + 1 * q.val; omega
  have h2 : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 64 + 1 * q.val = win1_3.index t (1 : Fin 2) * 64 + 1 * q.val; omega
  have key : ∀ (x : FVec Ideal S50000x64 .f32) (W : FVec Ideal S64x64 .f32) (br : FVec Ideal S1x64 .f32),
      max ((∑ k : Fin 64, x (((cfg1.win 0).blk t).view.emb (ix2 p k)) * W (((cfg1.win 1).blk t).view.emb (ix2 k q)))
          + br (((cfg1.win 2).blk t).view.emb (ix2 (0 : Fin 1) q))) (Ideal.ofBits .f32 0x00000000#32)
        = stage x W br (((cfg1.win 3).blk t).view.emb (ix2 p q)) := by
    intro x W br
    rw [h2, Finset.sum_congr rfl fun k _ => by rw [h0 k, h1 k]]
    rfl
  exact key (V c main_v15) (V c main_arg2) (V c main_v16)

/-- An index of the output array is in point t's block iff each coordinate is in the block's range. -/
theorem mem_block (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v17).slice (win1_3.rect t)).set ↔ _
  rw [View.set_slice_whole, Rect.mem_set_unit]
  exact Iff.rfl

/-- Row r of the output is covered by point r / 10000. -/
theorem covered (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have ht : (i 0).val / 10000 < grid1.N := by rw [N_1]; omega
  obtain ⟨-, -, -, -, -, -, e6, e7⟩ := block_index ⟨(i 0).val / 10000, ht⟩
  refine ⟨⟨(i 0).val / 10000, ht⟩, flush1_3 _, ?_⟩
  rw [mem_block]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, ht⟩ (1 : Fin 2) * 64 ≤ (i 1).val ∧ (i 1).val < win1_3.index ⟨(i 0).val / 10000, ht⟩ (1 : Fin 2) * 64 + 64
    rw [e7]; omega

/-- The output array after the launch: the dense stage of the entered arrays. -/
theorem array_after (c : Dev nD) : (dat1 V c).arrAt 3 cfg1.N = stage (V c main_v15) (V c main_arg2) (V c main_v16) :=
  (dat1 V c).arrAt_eq_of_cover 3 _ (fun t _ => written_back V c t) covered

end Cert.KernelIdeal.Region1

end
-- ==== Proof.Region2.lean ====
/-
  Launch 2 (a scaling launch) as one function of the arrays it is entered with.

  The grid has 80 points; point t handles rows 10000 t .. 10000 t + 9999 of all three windows (the gathered rows,
  the weight column, the output), and every point writes its output block back.  What point t writes back is
  therefore block t of "each gathered row times its weight", and since the 80 blocks tile the 800000 rows the
  output array ends holding that function everywhere.
-/
import proofs.«171752_j16776142258589_2_alg».proof.Proof.Gen.KernelIdeal.Frame
import proofs.«171752_j16776142258589_2_alg».proof.Proof.KernelBlocks
import proofs.«171752_j16776142258589_2_alg».proof.Proof.Stages

set_option maxRecDepth 16384

noncomputable section

namespace Cert.KernelIdeal.Region2

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The three index maps, decided over the grid: at point t every window's block index is (t, 0). -/
theorem block_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the scaled rows. -/
theorem written_back (c : Dev nD) (t : Fin cfg2.N) :
    (dat2 V c).flushed 2 t = ((cfg2.win 2).blk t).view.read (Elt Ideal) (scaleCol (V c main_v24) (V c main_v4)) := by
  show (cfg2.win 2).cut (grid2.coords t) ((dat2 V c).after 2 t) = _
  rw [after2_2]
  unfold out2_2
  rw [View.canon_unit_zero origin]
  simp only [View.ld_unit_zero (S := S10000x64) origin, View.ld_unit_zero (S := S10000x1) origin]
  obtain ⟨e0, e1, e2, e3, e4, e5⟩ := block_index t
  refine funext fun (j : S10000x64.Idx) => ?_
  obtain ⟨p, q, rfl⟩ : ∃ (p : Fin 10000) (q : Fin 64), j = ix2 p q := ⟨j 0, j 1, eq_ix2 j⟩
  refine (Blocks.scale_entry2 (iblk2 V c 0 t) (iblk2 V c 1 t) p q).trans ?_
  have hp : p.val < 10000 := p.isLt
  have hq : q.val < 64 := q.isLt
  have h0 : ((cfg2.win 0).blk t).view.emb (ix2 p q) = ((cfg2.win 2).blk t).view.emb (ix2 p q) := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * q.val = win2_2.index t (1 : Fin 2) * 64 + 1 * q.val; omega
  have h1 : ((cfg2.win 1).blk t).view.emb (ix2 p (0 : Fin 1)) = ix2 ((((cfg2.win 2).blk t).view.emb (ix2 p q)) 0) (0 : Fin 1) := by
    funext a; apply Fin.ext
    match a with
    | ⟨0, _⟩ => show win2_1.index t (0 : Fin 2) * 10000 + 1 * p.val = win2_2.index t (0 : Fin 2) * 10000 + 1 * p.val; omega
    | ⟨1, _⟩ => show win2_1.index t (1 : Fin 2) * 1 + 1 * 0 = 0; omega
  have key : ∀ (g : FVec Ideal S800000x64 .f32) (wc : FVec Ideal S800000x1 .f32),
      g (((cfg2.win 0).blk t).view.emb (ix2 p q)) * wc (((cfg2.win 1).blk t).view.emb (ix2 p (0 : Fin 1)))
        = scaleCol g wc (((cfg2.win 2).blk t).view.emb (ix2 p q)) := by
    intro g wc
    rw [h0, h1]
    rfl
  exact key (V c main_v24) (V c main_v4)

/-- An index of the output array is in point t's block iff each coordinate is in the block's range. -/
theorem mem_block (t : Fin cfg2.N) (i : S800000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v25).slice (win2_2.rect t)).set ↔ _
  rw [View.set_slice_whole, Rect.mem_set_unit]
  exact Iff.rfl

/-- Row r of the output is covered by point r / 10000. -/
theorem covered (i : S800000x64.Idx) : ∃ t : Fin cfg2.N, (cfg2.win 2).flush t = true ∧ i ∈ ((cfg2.win 2).blk t).view.set := by
  have hi0 : (i 0).val < 800000 := (i 0).isLt
  have hi1 : (i 1).val < 64 := (i 1).isLt
  have ht : (i 0).val / 10000 < grid2.N := by rw [N_2]; omega
  obtain ⟨-, -, -, -, e4, e5⟩ := block_index ⟨(i 0).val / 10000, ht⟩
  refine ⟨⟨(i 0).val / 10000, ht⟩, flush2_2 _, ?_⟩
  rw [mem_block]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 64 ≤ (i 1).val ∧ (i 1).val < win2_2.index ⟨(i 0).val / 10000, ht⟩ (1 : Fin 2) * 64 + 64
    rw [e5]; omega

/-- The output array after the launch: each entered row times its entered weight. -/
theorem array_after (c : Dev nD) : (dat2 V c).arrAt 2 cfg2.N = scaleCol (V c main_v24) (V c main_v4) :=
  (dat2 V c).arrAt_eq_of_cover 2 _ (fun t _ => written_back V c t) covered

end Cert.KernelIdeal.Region2

end
-- ==== Proof.Region3.lean ====
/-
  Launch 3 (a dense launch) as one function of the arrays it is entered with.

  The grid has 5 points; point t handles rows 10000 t .. 10000 t + 9999 of the input and of the output, while the
  64 x 64 matrix and the 1 x 64 bias row are the same whole blocks at every point.  Every point writes its output
  block back.  What point t writes back is therefore block t of "row times matrix plus bias", and since the
  five blocks tile the 50000 rows the output array ends holding that function everywhere.
-/
import proofs.«171752_j16776142258589_2_alg».proof.Proof.Gen.KernelIdeal.Frame
import proofs.«171752_j16776142258589_2_alg».proof.Proof.KernelBlocks
import proofs.«171752_j16776142258589_2_alg».proof.Proof.Stages

set_option maxRecDepth 16384

noncomputable section

namespace Cert.KernelIdeal.Region3

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The four index maps, decided over the grid: at point t the input's and the output's block index is (t, 0),
    the matrix's and the bias row's is (0, 0). -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The dense stage of the layer, as the launch computes it. -/
def stage (x : FVec Ideal S50000x64 .f32) (W : FVec Ideal S64x64 .f32) (br : FVec Ideal S1x64 .f32) : FVec Ideal S50000x64 .f32 :=
  affineRow x W br

/-- What point t writes back is block t of the dense stage. -/
theorem written_back (c : Dev nD) (t : Fin cfg3.N) :
    (dat3 V c).flushed 3 t = ((cfg3.win 3).blk t).view.read (Elt Ideal) (stage (V c main_v28) (V c main_arg4) (V c main_v29)) := by
  show (cfg3.win 3).cut (grid3.coords t) ((dat3 V c).after 3 t) = _
  rw [after3_3]
  unfold out3_3
  rw [View.canon_unit_zero origin]
  simp only [View.ld_unit_zero (S := S10000x64) origin, View.ld_unit_zero (S := S64x64) origin, View.ld_unit_zero (S := S1x64) origin]
  obtain ⟨e0, e1, e2, e3, e4, e5, e6, e7⟩ := block_index t
  refine funext fun (j : S10000x64.Idx) => ?_
  obtain ⟨p, q, rfl⟩ : ∃ (p : Fin 10000) (q : Fin 64), j = ix2 p q := ⟨j 0, j 1, eq_ix2 j⟩
  refine (Blocks.affine_entry3 (iblk3 V c 0 t) (iblk3 V c 1 t) (iblk3 V c 2 t) p q).trans ?_
  have hp : p.val < 10000 := p.isLt
  have hq : q.val < 64 := q.isLt
  have h0 : ∀ k : Fin 64, ((cfg3.win 0).blk t).view.emb (ix2 p k) = ix2 ((((cfg3.win 3).blk t).view.emb (ix2 p q)) 0) k := by
    intro k
    have hk : k.val < 64 := k.isLt
    funext a; apply Fin.ext
    match a with
    | ⟨0, _⟩ => show win3_0.index t (0 : Fin 2) * 10000 + 1 * p.val = win3_3.index t (0 : Fin 2) * 10000 + 1 * p.val; omega
    | ⟨1, _⟩ => show win3_0.index t (1 : Fin 2) * 64 + 1 * k.val = k.val; omega
  have h1 : ∀ k : Fin 64, ((cfg3.win 1).blk t).view.emb (ix2 k q) = ix2 k ((((cfg3.win 3).blk t).view.emb (ix2 p q)) 1) := by
    intro k
    have hk : k.val < 64 := k.isLt
    funext a; apply Fin.ext
    match a with
    | ⟨0, _⟩ => show win3_1.index t (0 : Fin 2) * 64 + 1 * k.val = k.val; omega
    | ⟨1, _⟩ => show win3_1.index t (1 : Fin 2) * 64 + 1 * q.val = win3_3.index t (1 : Fin 2) * 64 + 1 * q.val; omega
  have h2 : ((cfg3.win 2).blk t).view.emb (ix2 (0 : Fin 1) q) = ix2 (0 : Fin 1) ((((cfg3.win 3).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 64 + 1 * q.val = win3_3.index t (1 : Fin 2) * 64 + 1 * q.val; omega
  have key : ∀ (x : FVec Ideal S50000x64 .f32) (W : FVec Ideal S64x64 .f32) (br : FVec Ideal S1x64 .f32),
      (∑ k : Fin 64, x (((cfg3.win 0).blk t).view.emb (ix2 p k)) * W (((cfg3.win 1).blk t).view.emb (ix2 k q)))
          + br (((cfg3.win 2).blk t).view.emb (ix2 (0 : Fin 1) q))
        = stage x W br (((cfg3.win 3).blk t).view.emb (ix2 p q)) := by
    intro x W br
    rw [h2, Finset.sum_congr rfl fun k _ => by rw [h0 k, h1 k]]
    rfl
  exact key (V c main_v28) (V c main_arg4) (V c main_v29)

/-- An index of the output array is in point t's block iff each coordinate is in the block's range. -/
theorem mem_block (t : Fin cfg3.N) (i : S50000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v30).slice (win3_3.rect t)).set ↔ _
  rw [View.set_slice_whole, Rect.mem_set_unit]
  exact Iff.rfl

/-- Row r of the output is covered by point r / 10000. -/
theorem covered (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  have ht : (i 0).val / 10000 < grid3.N := by rw [N_3]; omega
  obtain ⟨-, -, -, -, -, -, e6, e7⟩ := block_index ⟨(i 0).val / 10000, ht⟩
  refine ⟨⟨(i 0).val / 10000, ht⟩, flush3_3 _, ?_⟩
  rw [mem_block]
  intro a
  match a with
  | ⟨0, _⟩ =>
    show win3_3.index ⟨(i 0).val / 10000, ht⟩ (0 : Fin 2) * 10000 ≤ (i 0).val ∧ (i 0).val < win3_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win3_3.index ⟨(i 0).val / 10000, ht⟩ (1 : Fin 2) * 64 ≤ (i 1).val ∧ (i 1).val < win3_3.index ⟨(i 0).val / 10000, ht⟩ (1 : Fin 2) * 64 + 64
    rw [e7]; omega

/-- The output array after the launch: the dense stage of the entered arrays. -/
theorem array_after (c : Dev nD) : (dat3 V c).arrAt 3 cfg3.N = stage (V c main_v28) (V c main_arg4) (V c main_v29) :=
  (dat3 V c).arrAt_eq_of_cover 3 _ (fun t _ => written_back V c t) covered

end Cert.KernelIdeal.Region3

end
-- ==== Proof.KernelLayers.lean ====
/-
  The idealized kernel's result array as the two graph-convolution layers of its arguments.

  The run's buffer contents are followed boundary by boundary.  Before the first launch the host operations
  cut the edge list into its source row and its destination row, recast the weights as a column, and gather
  the source rows of the features.  Each scaling launch leaves "gathered row times weight"; the host
  operations after it sum those rows into their destination rows (from a zero array) and recast the bias as a
  row; each dense launch leaves "row times matrix plus bias" (the first with the positive part); between the
  layers the host operations gather again.  A buffer that a stretch of host operations does not write, and
  that a launch does not write back, keeps its contents across it: this is how the source row, the
  destination row, the weight column and the later layer's matrix and bias reach the place they are used.
-/
import proofs.«171752_j16776142258589_2_alg».proof.Proof.Gen.KernelIdeal.Frame
import proofs.«171752_j16776142258589_2_alg».proof.Proof.Stages
import proofs.«171752_j16776142258589_2_alg».proof.Proof.Region0
import proofs.«171752_j16776142258589_2_alg».proof.Proof.Region1
import proofs.«171752_j16776142258589_2_alg».proof.Proof.Region2
import proofs.«171752_j16776142258589_2_alg».proof.Proof.Region3
import Idealize.ShloMosaic.Lib.StableHlo.Run

set_option maxRecDepth 16384

noncomputable section

namespace Cert.KernelIdeal.Layers

open Cert.KernelIdeal Cert.KernelIdeal.Gen Cert.GraphConv
open Idealize.ShloMosaic Idealize.ShloMosaic.TcCoe Idealize.ShloMosaic.ValueIdx Idealize.SL.Sem Idealize.ShloMosaic.StableHlo

/-! ## The layers, over this program's dimension records -/

/-- Row 0 of the edge list: the edges' source nodes. -/
def sourceRow (x6 : IVec S2x800000 32) : IVec S800000 32 :=
  shapeCast S800000 (extractStridedSlice S1x800000 ![0, 0] x6 slices_S2x800000_S1x800000_0_0) shapeCasts_S1x800000_S800000

/-- Row 1 of the edge list: the edges' destination nodes. -/
def destinationRow (x6 : IVec S2x800000 32) : IVec S800000 32 :=
  shapeCast S800000 (extractStridedSlice S1x800000 ![1, 0] x6 slices_S2x800000_S1x800000_1_0) shapeCasts_S1x800000_S800000

/-- Edge sources as a column of row numbers, a negative value wrapped by 50000. -/
def sources (x6 : IVec S2x800000 32) : IVec S800000x1 32 :=
  broadcastInDim S800000x1 ![0] bcast_S800000_S800000x1_0
    (select (cmpi .slt (sourceRow x6) (broadcastInDim S800000 ![] bcast_S_S800000 (constantI S_ 32 0#32)))
      (addi (sourceRow x6) (broadcastInDim S800000 ![] bcast_S_S800000 (constantI S_ 32 50000#32)))
      (sourceRow x6))

/-- Edge destinations as a column of row numbers. -/
def destinations (x6 : IVec S2x800000 32) : IVec S800000x1 32 :=
  broadcastInDim S800000x1 ![0] bcast_S800000_S800000x1_0 (destinationRow x6)

/-- One aggregation: gather the source rows, scale by the weights, sum into the destination rows from zero. -/
def aggregate (H : FVec Ideal S50000x64 .f32) (w : FVec Ideal S800000 .f32) (x6 : IVec S2x800000 32) : FVec Ideal S50000x64 .f32 :=
  Host.scatterAdd scatter_S50000x64_S800000x1_S800000x64_1_0_0_1
    (broadcastInDim S50000x64 ![] bcast_S_S50000x64 (constant (F := Ideal) S_ .f32 0x00000000#32))
    (destinations x6)
    (messages (Host.gather gather_S50000x64_S800000x1_S800000x64_1_0_n_n_0_1_164 H (sources x6)) w)

/-- The two layers. -/
def network (x0 : FVec Ideal S50000x64 .f32) (w : FVec Ideal S800000 .f32) (W1 : FVec Ideal S64x64 .f32) (b1 : FVec Ideal S64 .f32)
    (W2 : FVec Ideal S64x64 .f32) (b2 : FVec Ideal S64 .f32) (x6 : IVec S2x800000 32) : FVec Ideal S50000x64 .f32 :=
  affine (aggregate (relu (affine (aggregate x0 w x6) W1 b1)) w x6) W2 b2

variable (m : (ℓ : Loc nD τ sig) → Buf (Elt Ideal) ℓ) (ρ : Dev nD → PrngReg) (c : Dev nD)

/-! ## What each stretch of host operations leaves alone -/

theorem writes0 : (hostOps0 : List (HloOp τ sig (Elt Ideal))).Forall fun op => op.writes ⊆
    (([main_v0, main_v1, main_v2, main_v3, main_v4, main_c, main_v5, main_v6, main_c_0, main_v7, main_v8, main_v9, main_v10, main_v11] : List (Ref sig .tc)).map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_⟩ <;> exact List.mem_map_of_mem (by decide)
theorem writes1 : (hostOps1 : List (HloOp τ sig (Elt Ideal))).Forall fun op => op.writes ⊆
    (([main_cst, main_v13, main_v14, main_v15, main_v16] : List (Ref sig .tc)).map (Proc.devRef (τ := τ) .tc)).toFinset := by
  simp only [List.Forall, nullary_writes, unary_writes, binary_writes, ternary_writes, reshape_writes, Finset.singleton_subset_iff, List.mem_toFinset]
  refine ⟨?_, ?_, ?_, ?_, ?_⟩ <;> exact List.mem_map_of_mem (by decide)
theorem writes2 : (hostOps2 : List (HloOp τ sig (Elt Ideal))).Forall fun op => op.writes ⊆
    (([main_c_1, main_v18, main_v19, main_c_2, main_v20, main_v21, main_v22, main_v23, main_v24] : List (Ref sig .tc)).map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_⟩ <;> exact List.mem_map_of_mem (by decide)
theorem writes3 : (hostOps3 : List (HloOp τ sig (Elt Ideal))).Forall fun op => op.writes ⊆
    (([main_cst_3, main_v26, main_v27, main_v28, main_v29] : List (Ref sig .tc)).map (Proc.devRef (τ := τ) .tc)).toFinset := by
  simp only [List.Forall, nullary_writes, unary_writes, binary_writes, ternary_writes, reshape_writes, Finset.singleton_subset_iff, List.mem_toFinset]
  refine ⟨?_, ?_, ?_, ?_, ?_⟩ <;> exact List.mem_map_of_mem (by decide)

/-- A buffer the first stretch does not write holds its launch contents at the first launch. -/
theorem kept0 (r : Ref sig .tc)
    (h : r ∉ ([main_v0, main_v1, main_v2, main_v3, main_v4, main_c, main_v5, main_v6, main_c_0, main_v7, main_v8, main_v9, main_v10, main_v11] : List (Ref sig .tc))) :
    W1 m ρ c (Proc.devRef .tc r) = m ((c : Thread nD τ).loc r) :=
  (after_of_writes_sub hostOps0 _ writes0 h).trans rfl
theorem kept1 (r : Ref sig .tc) (h : r ∉ ([main_cst, main_v13, main_v14, main_v15, main_v16] : List (Ref sig .tc))) :
    W3 m ρ c (Proc.devRef .tc r) = W2 m ρ c (Proc.devRef .tc r) :=
  after_of_writes_sub hostOps1 _ writes1 h
theorem kept2 (r : Ref sig .tc)
    (h : r ∉ ([main_c_1, main_v18, main_v19, main_c_2, main_v20, main_v21, main_v22, main_v23, main_v24] : List (Ref sig .tc))) :
    W5 m ρ c (Proc.devRef .tc r) = W4 m ρ c (Proc.devRef .tc r) :=
  after_of_writes_sub hostOps2 _ writes2 h
theorem kept3 (r : Ref sig .tc) (h : r ∉ ([main_cst_3, main_v26, main_v27, main_v28, main_v29] : List (Ref sig .tc))) :
    W7 m ρ c (Proc.devRef .tc r) = W6 m ρ c (Proc.devRef .tc r) :=
  after_of_writes_sub hostOps3 _ writes3 h

/-- From the first launch to the second: a buffer that is no array of the first launch and that the second
    stretch does not write. -/
theorem carried3 (r : Ref sig .tc) (h0 : ∀ w, Pipeline.arrRef spec0 w ≠ r)
    (h1 : r ∉ ([main_cst, main_v13, main_v14, main_v15, main_v16] : List (Ref sig .tc))) :
    W3 m ρ c (Proc.devRef .tc r) = W1 m ρ c (Proc.devRef .tc r) :=
  (kept1 m ρ c r h1).trans (W2_of_ne m ρ c r h0)
/-- From the first launch to the third. -/
theorem carried5 (r : Ref sig .tc) (h0 : ∀ w, Pipeline.arrRef spec0 w ≠ r)
    (h1 : r ∉ ([main_cst, main_v13, main_v14, main_v15, main_v16] : List (Ref sig .tc)))
    (h1' : ∀ w, Pipeline.arrRef spec1 w ≠ r)
    (h2 : r ∉ ([main_c_1, main_v18, main_v19, main_c_2, main_v20, main_v21, main_v22, main_v23, main_v24] : List (Ref sig .tc))) :
    W5 m ρ c (Proc.devRef .tc r) = W1 m ρ c (Proc.devRef .tc r) :=
  (kept2 m ρ c r h2).trans ((W4_of_ne m ρ c r h1').trans (carried3 m ρ c r h0 h1))
/-- From the first launch to the fourth. -/
theorem carried7 (r : Ref sig .tc) (h0 : ∀ w, Pipeline.arrRef spec0 w ≠ r)
    (h1 : r ∉ ([main_cst, main_v13, main_v14, main_v15, main_v16] : List (Ref sig .tc)))
    (h1' : ∀ w, Pipeline.arrRef spec1 w ≠ r)
    (h2 : r ∉ ([main_c_1, main_v18, main_v19, main_c_2, main_v20, main_v21, main_v22, main_v23, main_v24] : List (Ref sig .tc)))
    (h2' : ∀ w, Pipeline.arrRef spec2 w ≠ r)
    (h3 : r ∉ ([main_cst_3, main_v26, main_v27, main_v28, main_v29] : List (Ref sig .tc))) :
    W7 m ρ c (Proc.devRef .tc r) = W1 m ρ c (Proc.devRef .tc r) :=
  (kept3 m ρ c r h3).trans ((W6_of_ne m ρ c r h2').trans (carried5 m ρ c r h0 h1 h1' h2))

/-! ## At the first launch -/

theorem at1_sourceRow : W1 m ρ c (Proc.devRef .tc main_v1) = sourceRow (m ((c : Thread nD τ).loc main_arg6)) := by
  show after hostOps0 (W0 m ρ c) (Proc.devRef .tc main_v1) = _
  after_results; rfl
theorem at1_destinationRow : W1 m ρ c (Proc.devRef .tc main_v3) = destinationRow (m ((c : Thread nD τ).loc main_arg6)) := by
  show after hostOps0 (W0 m ρ c) (Proc.devRef .tc main_v3) = _
  after_results; rfl
theorem at1_weights : W1 m ρ c (Proc.devRef .tc main_v4) = shapeCast S800000x1 (m ((c : Thread nD τ).loc main_arg1)) shapeCasts_S800000_S800000x1 := by
  show after hostOps0 (W0 m ρ c) (Proc.devRef .tc main_v4) = _
  after_results; rfl
theorem at1_gathered : W1 m ρ c (Proc.devRef .tc main_v11)
    = Host.gather gather_S50000x64_S800000x1_S800000x64_1_0_n_n_0_1_164 (m ((c : Thread nD τ).loc main_arg0)) (sources (m ((c : Thread nD τ).loc main_arg6))) := by
  show after hostOps0 (W0 m ρ c) (Proc.devRef .tc main_v11) = _
  after_results; rfl

/-! ## After the first launch, and up to the second -/

theorem at2_messages : W2 m ρ c (Proc.devRef .tc main_v12)
    = messages (Host.gather gather_S50000x64_S800000x1_S800000x64_1_0_n_n_0_1_164 (m ((c : Thread nD τ).loc main_arg0)) (sources (m ((c : Thread nD τ).loc main_arg6)))) (m ((c : Thread nD τ).loc main_arg1)) := by
  refine (W2_arr m ρ c 2).trans ((Region0.array_after (V1 m ρ) c).trans ?_)
  show scaleCol (W1 m ρ c (Proc.devRef .tc main_v11)) (W1 m ρ c (Proc.devRef .tc main_v4)) = _
  rw [at1_gathered, at1_weights]
  exact scaleCol_cast _ _ _
/-- The weight column is an input of the first launch: it comes out as it went in. -/
theorem at2_weights : W2 m ρ c (Proc.devRef .tc main_v4) = shapeCast S800000x1 (m ((c : Thread nD τ).loc main_arg1)) shapeCasts_S800000_S800000x1 :=
  ((W2_arr m ρ c 1).trans (((dat0 (V1 m ρ) c).arrAt_in 1 rfl _).trans (A_eq0 (V1 m ρ) c 1))).trans (at1_weights m ρ c)
theorem at2_destinationRow : W2 m ρ c (Proc.devRef .tc main_v3) = destinationRow (m ((c : Thread nD τ).loc main_arg6)) :=
  (W2_of_ne m ρ c main_v3 (by decide)).trans (at1_destinationRow m ρ c)
theorem at2_bias1 : W2 m ρ c (Proc.devRef .tc main_arg3) = (m ((c : Thread nD τ).loc main_arg3)) :=
  (W2_of_ne m ρ c main_arg3 (by decide)).trans (kept0 m ρ c main_arg3 (by decide))

theorem at3_aggregate : W3 m ρ c (Proc.devRef .tc main_v15) = aggregate (m ((c : Thread nD τ).loc main_arg0)) (m ((c : Thread nD τ).loc main_arg1)) (m ((c : Thread nD τ).loc main_arg6)) := by
  show after hostOps1 (W2 m ρ c) (Proc.devRef .tc main_v15) = _
  after_results
  rw [at2_destinationRow, at2_messages]
  rfl
theorem at3_bias1 : W3 m ρ c (Proc.devRef .tc main_v16) = shapeCast S1x64 (m ((c : Thread nD τ).loc main_arg3)) shapeCasts_S64_S1x64 := by
  show after hostOps1 (W2 m ρ c) (Proc.devRef .tc main_v16) = _
  after_results
  rw [at2_bias1]
  rfl
theorem at3_matrix1 : W3 m ρ c (Proc.devRef .tc main_arg2) = (m ((c : Thread nD τ).loc main_arg2)) :=
  (carried3 m ρ c main_arg2 (by decide) (by decide)).trans (kept0 m ρ c main_arg2 (by decide))

/-! ## After the second launch, and up to the third -/

theorem at4_hidden : W4 m ρ c (Proc.devRef .tc main_v17)
    = relu (affine (aggregate (m ((c : Thread nD τ).loc main_arg0)) (m ((c : Thread nD τ).loc main_arg1)) (m ((c : Thread nD τ).loc main_arg6))) (m ((c : Thread nD τ).loc main_arg2)) (m ((c : Thread nD τ).loc main_arg3))) := by
  refine (W4_arr m ρ c 3).trans ((Region1.array_after (V3 m ρ) c).trans ?_)
  show Region1.stage (W3 m ρ c (Proc.devRef .tc main_v15)) (W3 m ρ c (Proc.devRef .tc main_arg2)) (W3 m ρ c (Proc.devRef .tc main_v16)) = _
  rw [at3_aggregate, at3_matrix1, at3_bias1]
  unfold Region1.stage
  rw [affineRow_cast]
theorem at4_sourceRow : W4 m ρ c (Proc.devRef .tc main_v1) = sourceRow (m ((c : Thread nD τ).loc main_arg6)) :=
  (W4_of_ne m ρ c main_v1 (by decide)).trans ((carried3 m ρ c main_v1 (by decide) (by decide)).trans (at1_sourceRow m ρ c))

theorem at5_gathered : W5 m ρ c (Proc.devRef .tc main_v24)
    = Host.gather gather_S50000x64_S800000x1_S800000x64_1_0_n_n_0_1_164
        (relu (affine (aggregate (m ((c : Thread nD τ).loc main_arg0)) (m ((c : Thread nD τ).loc main_arg1)) (m ((c : Thread nD τ).loc main_arg6))) (m ((c : Thread nD τ).loc main_arg2)) (m ((c : Thread nD τ).loc main_arg3)))) (sources (m ((c : Thread nD τ).loc main_arg6))) := by
  show after hostOps2 (W4 m ρ c) (Proc.devRef .tc main_v24) = _
  after_results
  rw [at4_hidden, at4_sourceRow]
  rfl
theorem at5_weights : W5 m ρ c (Proc.devRef .tc main_v4) = shapeCast S800000x1 (m ((c : Thread nD τ).loc main_arg1)) shapeCasts_S800000_S800000x1 :=
  (kept2 m ρ c main_v4 (by decide)).trans ((W4_of_ne m ρ c main_v4 (by decide)).trans ((kept1 m ρ c main_v4 (by decide)).trans (at2_weights m ρ c)))

/-! ## After the third launch, and up to the fourth -/

theorem at6_messages : W6 m ρ c (Proc.devRef .tc main_v25)
    = messages (Host.gather gather_S50000x64_S800000x1_S800000x64_1_0_n_n_0_1_164
        (relu (affine (aggregate (m ((c : Thread nD τ).loc main_arg0)) (m ((c : Thread nD τ).loc main_arg1)) (m ((c : Thread nD τ).loc main_arg6))) (m ((c : Thread nD τ).loc main_arg2)) (m ((c : Thread nD τ).loc main_arg3)))) (sources (m ((c : Thread nD τ).loc main_arg6)))) (m ((c : Thread nD τ).loc main_arg1)) := by
  refine (W6_arr m ρ c 2).trans ((Region2.array_after (V5 m ρ) c).trans ?_)
  show scaleCol (W5 m ρ c (Proc.devRef .tc main_v24)) (W5 m ρ c (Proc.devRef .tc main_v4)) = _
  rw [at5_gathered, at5_weights]
  exact scaleCol_cast _ _ _
theorem at6_destinationRow : W6 m ρ c (Proc.devRef .tc main_v3) = destinationRow (m ((c : Thread nD τ).loc main_arg6)) :=
  (W6_of_ne m ρ c main_v3 (by decide)).trans ((carried5 m ρ c main_v3 (by decide) (by decide) (by decide) (by decide)).trans (at1_destinationRow m ρ c))
theorem at6_bias2 : W6 m ρ c (Proc.devRef .tc main_arg5) = (m ((c : Thread nD τ).loc main_arg5)) :=
  (W6_of_ne m ρ c main_arg5 (by decide)).trans ((carried5 m ρ c main_arg5 (by decide) (by decide) (by decide) (by decide)).trans (kept0 m ρ c main_arg5 (by decide)))

theorem at7_aggregate : W7 m ρ c (Proc.devRef .tc main_v28)
    = aggregate (relu (affine (aggregate (m ((c : Thread nD τ).loc main_arg0)) (m ((c : Thread nD τ).loc main_arg1)) (m ((c : Thread nD τ).loc main_arg6))) (m ((c : Thread nD τ).loc main_arg2)) (m ((c : Thread nD τ).loc main_arg3)))) (m ((c : Thread nD τ).loc main_arg1)) (m ((c : Thread nD τ).loc main_arg6)) := by
  show after hostOps3 (W6 m ρ c) (Proc.devRef .tc main_v28) = _
  after_results
  rw [at6_destinationRow, at6_messages]
  rfl
theorem at7_bias2 : W7 m ρ c (Proc.devRef .tc main_v29) = shapeCast S1x64 (m ((c : Thread nD τ).loc main_arg5)) shapeCasts_S64_S1x64 := by
  show after hostOps3 (W6 m ρ c) (Proc.devRef .tc main_v29) = _
  after_results
  rw [at6_bias2]
  rfl
theorem at7_matrix2 : W7 m ρ c (Proc.devRef .tc main_arg4) = (m ((c : Thread nD τ).loc main_arg4)) :=
  (carried7 m ρ c main_arg4 (by decide) (by decide) (by decide) (by decide) (by decide) (by decide)).trans (kept0 m ρ c main_arg4 (by decide))

/-! ## After the fourth launch: the result -/

/-- The result array at the last boundary is the two layers of the launch contents of the arguments. -/
theorem result : W8 m ρ c (Proc.devRef .tc main_v30)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 3).trans ((Region3.array_after (V7 m ρ) c).trans ?_)
  show Region3.stage (W7 m ρ c (Proc.devRef .tc main_v28)) (W7 m ρ c (Proc.devRef .tc main_arg4)) (W7 m ρ c (Proc.devRef .tc main_v29)) = _
  rw [at7_aggregate, at7_matrix2, at7_bias2]
  unfold Region3.stage
  rw [affineRow_cast]
  rfl

end Cert.KernelIdeal.Layers

end
-- ==== Proof.LibHostRowColumn.lean ====
/-
  Two host layouts read at an index, for any sizes and any element type.

  * row_repeated: a vector of b entries made one row [1, b] (broadcast_in_dim along axis 1) and then repeated down
    a rows (broadcast_in_dim of [1, b] into [a, b]) reads, at (e, c), the vector's entry c: a bias vector added to
    every row of a matrix.
  * column_repeated: a vector of a entries made a column [a, 1] (broadcast_in_dim along axis 0) and then repeated
    across b columns reads, at (e, c), the vector's entry e: a row maximum subtracted from, or a row sum divided
    into, every entry of its row.
-/
import Idealize.ShloMosaic.Lib.Pipeline.Value
import Idealize.ShloMosaic.Lib.ValueIdx

namespace Cert.Lib.HostRowColumn

open Idealize.ShloMosaic Idealize.ShloMosaic.ValueIdx

variable {α : Type}

/-- A vector made one row and repeated down the rows reads, at (e, c), its entry c. -/
theorem row_repeated {a b : ℕ} (β : (⟨1, ![b]⟩ : Shape).Idx → α)
    (h : (⟨1, ![b]⟩ : Shape).BroadcastsInDim ⟨2, ![1, b]⟩ (![1] : Fin 1 → Fin 2))
    (h' : (⟨2, ![1, b]⟩ : Shape).BroadcastsInDim ⟨2, ![a, b]⟩ (![0, 1] : Fin 2 → Fin 2)) (e : Fin a) (c : Fin b) :
    broadcastInDim ⟨2, ![a, b]⟩ ![0, 1] h' (broadcastInDim ⟨2, ![1, b]⟩ ![1] h β) (ix2 e c) = β (ix1 c) :=
  (broadcastInDim_apply _ h' _ (ix2 e c) (ix2 (0 : Fin 1) c) (fun ax => by
    match ax with
    | ⟨0, _⟩ => rfl
    | ⟨1, _⟩ =>
      show c.val = if b = 1 then 0 else c.val
      split
      · have := c.isLt; omega
      · rfl)).trans
  (broadcastInDim_apply _ h β (ix2 (0 : Fin 1) c) (ix1 c) (fun ax => by
    match ax with
    | ⟨0, _⟩ =>
      show c.val = if b = 1 then 0 else c.val
      split
      · have := c.isLt; omega
      · rfl))

/-- A vector made a column and repeated across the columns reads, at (e, c), its entry e. -/
theorem column_repeated {a b : ℕ} (v : (⟨1, ![a]⟩ : Shape).Idx → α)
    (h : (⟨1, ![a]⟩ : Shape).BroadcastsInDim ⟨2, ![a, 1]⟩ (![0] : Fin 1 → Fin 2))
    (h' : (⟨2, ![a, 1]⟩ : Shape).BroadcastsInDim ⟨2, ![a, b]⟩ (![0, 1] : Fin 2 → Fin 2)) (e : Fin a) (c : Fin b) :
    broadcastInDim ⟨2, ![a, b]⟩ ![0, 1] h' (broadcastInDim ⟨2, ![a, 1]⟩ ![0] h v) (ix2 e c) = v (ix1 e) :=
  (broadcastInDim_apply _ h' _ (ix2 e c) (ix2 e (0 : Fin 1)) (fun ax => by
    match ax with
    | ⟨0, _⟩ =>
      show e.val = if a = 1 then 0 else e.val
      split
      · have := e.isLt; omega
      · rfl
    | ⟨1, _⟩ => rfl)).trans
  (broadcastInDim_apply _ h v (ix2 e (0 : Fin 1)) (ix1 e) (fun ax => by
    match ax with
    | ⟨0, _⟩ =>
      show e.val = if a = 1 then 0 else e.val
      split
      · have := e.isLt; omega
      · rfl))

end Cert.Lib.HostRowColumn
-- ==== Proof.LibDotGeneralAt.lean ====
/-
  A general fact about a host contraction, for any sizes.

  * dotGeneral_at: a host dot_general of a plain matrix product (rows × contracted axis, contracted axis ×
    columns), read at entry (r, c) at the ideal instance, is the sum over the contracted axis of
    lhs[r,k] · rhs[k,c], whatever the precision and the schedule key. It is the host-side companion of the
    same reading of a kernel's matrix product into the zero accumulator: the two sums are then literally the
    same sum over Fin K.
-/
import Idealize.ShloMosaic.PureOps.Ideal.Laws
import Idealize.ShloMosaic.Lib.ValueIdx

noncomputable section

namespace Cert.Lib.DotGeneralAt

open Idealize.ShloMosaic Idealize.ShloMosaic.ValueIdx

/-- A host dot_general of a plain matrix product, read at entry (r, c): the sum over the contracted axis of
    the row's entries times the column's. The four hypotheses name the coordinates of the operands' indices at
    an output index and a contraction index (for a printed dimension record: two by unfolding the index maps,
    two by the library's lhsIdx_val_of_single / rhsIdx_val_of_single). -/
theorem dotGeneral_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision) (sched : HostSchedule)
    (lhs : FVec Ideal ⟨2, ![n, K]⟩ φ₁) (rhs : FVec Ideal ⟨2, ![K, d]⟩ φ₂) (r : Fin n) (c : Fin d) :
    FloatOps.dotGeneral D prec sched lhs rhs (ix2 r c) = ∑ k : Fin K, lhs (ix2 r k) * rhs (ix2 k c) := by
  rw [Ideal.dotGeneral_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.DotGeneralAt

end
-- ==== Proof.ReferenceLayers.lean ====
/-
  The reference program as the two graph-convolution layers.

  The reference multiplies the weights (made a column, then repeated over the 64 columns) into the gathered
  rows, scatter-sums, and applies the dense map with the bias (made a row, then repeated down the rows); the
  first layer ends in the maximum with a zero array.  Entry by entry these are the shared stages: a repeated
  column reads the vector at the row, a repeated row reads it at the column, the host contraction is the sum of
  products over the shared axis, and multiplication commutes.  The index chains (edge sources with negative
  values wrapped once, edge destinations), the gather and the scatter-sum are left as they are printed.
-/
import proofs.«171752_j16776142258589_2_alg».proof.Proof.Gen.ReferenceIdeal.Read
import proofs.«171752_j16776142258589_2_alg».proof.Proof.Stages
import proofs.«171752_j16776142258589_2_alg».proof.Proof.LibHostRowColumn
import proofs.«171752_j16776142258589_2_alg».proof.Proof.LibDotGeneralAt
import proofs.«171752_j16776142258589_2_alg».proof.Proof.LibColumns

noncomputable section

namespace Cert.ReferenceIdeal.Layers

open Cert.ReferenceIdeal Cert.ReferenceIdeal.Gen Cert.GraphConv
open Idealize.ShloMosaic Idealize.ShloMosaic.ValueIdx

/-- The weight column repeated over the columns, times the gathered rows: the messages. -/
theorem messages_eq (g : FVec Ideal S800000x64 .f32) (w : FVec Ideal S800000 .f32) :
    mulf (broadcastInDim S800000x64 ![0, 1] bcast_S800000x1_S800000x64_0_1 (broadcastInDim S800000x1 ![0] bcast_S800000_S800000x1_0 w)) g
      = messages g w := by
  funext i
  obtain ⟨e, d, rfl⟩ : ∃ (e : Fin 800000) (d : Fin 64), i = ix2 e d := ⟨i 0, i 1, eq_ix2 i⟩
  refine (mulf_apply _ _ _).trans ?_
  rw [Cert.Lib.HostRowColumn.column_repeated w bcast_S800000_S800000x1_0 bcast_S800000x1_S800000x64_0_1 e d]
  exact mul_comm _ _

/-- The host contraction plus the bias row repeated down the rows: the dense map. -/
theorem affine_eq (x : FVec Ideal S50000x64 .f32) (W : FVec Ideal S64x64 .f32) (b : FVec Ideal S64 .f32) :
    addf (Host.dotGeneral dot_S50000x64_S64x64_S50000x64_1_0_0_1_n_n none x W)
        (broadcastInDim S50000x64 ![0, 1] bcast_S1x64_S50000x64_0_1 (broadcastInDim S1x64 ![1] bcast_S64_S1x64_1 b))
      = affine x W b := by
  funext i
  obtain ⟨n, d, rfl⟩ : ∃ (n : Fin 50000) (d : Fin 64), i = ix2 n d := ⟨i 0, i 1, eq_ix2 i⟩
  refine (addf_apply _ _ _).trans ?_
  refine congrArg₂ (· + ·) ?_ ?_
  · exact Cert.Lib.DotGeneralAt.dotGeneral_at dot_S50000x64_S64x64_S50000x64_1_0_0_1_n_n rfl rfl
      Read.lhs_main_v17_0 Read.lhs_main_v17_1 Read.rhs_main_v17_0 Read.rhs_main_v17_1 none .single x W n d
  · exact Cert.Lib.HostRowColumn.row_repeated b bcast_S64_S1x64_1 bcast_S1x64_S50000x64_0_1 n d

/-- The maximum with the zero array: the positive part. -/
theorem relu_eq (y : FVec Ideal S50000x64 .f32) :
    maximumf y (broadcastInDim S50000x64 ![] bcast_S_S50000x64 (constant (F := Ideal) S_ .f32 0x00000000#32)) = relu y := by
  funext i
  refine (maximumf_apply _ _ _).trans ?_
  rw [Cert.Sage.Layout.broadcastInDim_scalar_apply]
  rfl

/-- Edge sources as a column of row numbers: row 0 of the edge list, a negative value wrapped by 50000. -/
def sources (x6 : IVec S2x800000 32) : IVec S800000x1 32 :=
  broadcastInDim S800000x1 ![0] bcast_S800000_S800000x1_0
    (select (cmpi .slt (shapeCast S800000 (extractStridedSlice S1x800000 ![0, 0] x6 slices_S2x800000_S1x800000_0_0) shapeCasts_S1x800000_S800000)
        (broadcastInDim S800000 ![] bcast_S_S800000 (constantI S_ 32 0#32)))
      (addi (shapeCast S800000 (extractStridedSlice S1x800000 ![0, 0] x6 slices_S2x800000_S1x800000_0_0) shapeCasts_S1x800000_S800000)
        (broadcastInDim S800000 ![] bcast_S_S800000 (constantI S_ 32 50000#32)))
      (shapeCast S800000 (extractStridedSlice S1x800000 ![0, 0] x6 slices_S2x800000_S1x800000_0_0) shapeCasts_S1x800000_S800000))

/-- Edge destinations as a column of row numbers: row 1 of the edge list. -/
def destinations (x6 : IVec S2x800000 32) : IVec S800000x1 32 :=
  broadcastInDim S800000x1 ![0] bcast_S800000_S800000x1_0
    (shapeCast S800000 (extractStridedSlice S1x800000 ![1, 0] x6 slices_S2x800000_S1x800000_1_0) shapeCasts_S1x800000_S800000)

/-- One aggregation: gather the source rows, scale by the weights, sum into the destination rows from zero. -/
def aggregate (H : FVec Ideal S50000x64 .f32) (w : FVec Ideal S800000 .f32) (x6 : IVec S2x800000 32) : FVec Ideal S50000x64 .f32 :=
  Host.scatterAdd scatter_S50000x64_S800000x1_S800000x64_1_0_0_1
    (broadcastInDim S50000x64 ![] bcast_S_S50000x64 (constant (F := Ideal) S_ .f32 0x00000000#32))
    (destinations x6)
    (messages (Host.gather gather_S50000x64_S800000x1_S800000x64_1_0_n_n_0_1_164 H (sources x6)) w)

/-- The two layers. -/
def network (x0 : FVec Ideal S50000x64 .f32) (w : FVec Ideal S800000 .f32) (W1 : FVec Ideal S64x64 .f32) (b1 : FVec Ideal S64 .f32)
    (W2 : FVec Ideal S64x64 .f32) (b2 : FVec Ideal S64 .f32) (x6 : IVec S2x800000 32) : FVec Ideal S50000x64 .f32 :=
  affine (aggregate (relu (affine (aggregate x0 w x6) W1 b1)) w x6) W2 b2

/-- The reference's last stage is the network of its arguments. -/
theorem value_eq (x0 : FVec Ideal S50000x64 .f32) (w : FVec Ideal S800000 .f32) (W1 : FVec Ideal S64x64 .f32) (b1 : FVec Ideal S64 .f32)
    (W2 : FVec Ideal S64x64 .f32) (b2 : FVec Ideal S64 .f32) (x6 : IVec S2x800000 32) :
    Read.val_main_v38 (F := Ideal) x0 w W1 b1 W2 b2 x6 = network x0 w W1 b1 W2 b2 x6 := by
  unfold Read.val_main_v38 Read.val_main_v37 Read.val_main_v36 Read.val_main_v35 Read.val_main_v34 Read.val_main_v33 Read.val_main_v32
    Read.val_main_cst_3 Read.val_main_v31 Read.val_main_v30 Read.val_main_v29 Read.val_main_v28 Read.val_main_v27 Read.val_main_v26
    Read.val_main_v25 Read.val_main_c_2 Read.val_main_v24 Read.val_main_v23 Read.val_main_c_1 Read.val_main_v22 Read.val_main_v21
    Read.val_main_call0_v0 Read.val_main_call0_cst Read.val_main_v20 Read.val_main_v19 Read.val_main_v18 Read.val_main_v17
    Read.val_main_v16 Read.val_main_v15 Read.val_main_v14 Read.val_main_cst Read.val_main_v13 Read.val_main_v12 Read.val_main_v11
    Read.val_main_v10 Read.val_main_v9 Read.val_main_v8 Read.val_main_v7 Read.val_main_c_0 Read.val_main_v6 Read.val_main_v5
    Read.val_main_c Read.val_main_v4 Read.val_main_v3 Read.val_main_v2 Read.val_main_v1 Read.val_main_v0
  rw [affine_eq, messages_eq, relu_eq, affine_eq, messages_eq]
  rfl

end Cert.ReferenceIdeal.Layers

end
-- ==== Proof.lean ====
/-
  Two graph-convolution layers: a kernel program against its array-language reference, on the extended reals.

  Both programs gather one feature row per edge, scale it by the edge's weight, sum the scaled rows into the
  rows of their destination nodes, and apply a dense map (a 64 x 64 matrix product plus a bias), with the
  positive part after the first layer.  The kernel program does the scaling and the dense maps in four kernel
  launches and the gathers and scatter-sums on the host; the reference does everything on the host.

  The kernel program's result array is read off its run boundary by boundary (KernelRun, Region0 .. Region3,
  KernelLayers); the reference's result is its generated run, regrouped into the same layers
  (ReferenceLayers).  The two layer functions are then one function: their gathers, scatter-sums and index
  chains are the same operations over dimension records that agree field by field, and the scaling differs
  only by the order of the two factors of a product, which commutes on the extended reals (no finiteness is
  used).  The three frames are the generated ones, and the idealization rewrote nothing.
-/
import proofs.«171752_j16776142258589_2_alg».proof.Defs
import proofs.«171752_j16776142258589_2_alg».proof.Proof.Gen.Kernel
import proofs.«171752_j16776142258589_2_alg».proof.Proof.Gen.Kernel.Frame
import proofs.«171752_j16776142258589_2_alg».proof.Proof.Gen.KernelIdeal
import proofs.«171752_j16776142258589_2_alg».proof.Proof.Gen.KernelIdeal.Frame
import proofs.«171752_j16776142258589_2_alg».proof.Proof.Gen.ReferenceIdeal
import proofs.«171752_j16776142258589_2_alg».proof.Proof.Gen.ReferenceIdeal.Run
import proofs.«171752_j16776142258589_2_alg».proof.Proof.Gen.ReferenceIdeal.Read
import proofs.«171752_j16776142258589_2_alg».proof.Proof.Gen.Pre_finite_inputs
import proofs.«171752_j16776142258589_2_alg».proof.Proof.KernelRun
import proofs.«171752_j16776142258589_2_alg».proof.Proof.KernelLayers
import proofs.«171752_j16776142258589_2_alg».proof.Proof.ReferenceLayers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs' layer functions are one function: the same operations over dimension records with the
    same fields. -/
theorem network_eq (x0 : FVec Ideal Cert.KernelIdeal.S50000x64 .f32) (w : FVec Ideal Cert.KernelIdeal.S800000 .f32)
    (W1 : FVec Ideal Cert.KernelIdeal.S64x64 .f32) (b1 : FVec Ideal Cert.KernelIdeal.S64 .f32)
    (W2 : FVec Ideal Cert.KernelIdeal.S64x64 .f32) (b2 : FVec Ideal Cert.KernelIdeal.S64 .f32) (x6 : IVec Cert.KernelIdeal.S2x800000 32) :
    Cert.ReferenceIdeal.Layers.network x0 w W1 b1 W2 b2 x6 = Cert.KernelIdeal.Layers.network x0 w W1 b1 W2 b2 x6 := rfl

/-- From memories agreeing on the arguments both programs end with the two layers of the arguments in their
    result arrays. -/
theorem algebraic : Cert.algebraic_KernelIdeal_ReferenceIdeal := by
  intro m ρ m' ρ' _ hagree
  refine ⟨fun c => Cert.KernelIdeal.Layers.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Layers.result m ρ c), (h c).2⟩)
      (Cert.KernelIdeal.Whole.run_result (F := Ideal) m ρ)
  · refine (θ_run Cert.ReferenceIdeal.defs _ _).mono (fun _ h c => ⟨?_, (h c).2⟩)
      (Cert.ReferenceIdeal.Value.run (F := Ideal) m' ρ')
    refine ((h c).1.trans (Cert.ReferenceIdeal.Read.val_main_v38_eq _ _ _ _ _ _ _)).trans
      ((Cert.ReferenceIdeal.Layers.value_eq _ _ _ _ _ _ _).trans ?_)
    rw [(hagree c).1, (hagree c).2.1, (hagree c).2.2.1, (hagree c).2.2.2.1, (hagree c).2.2.2.2.1, (hagree c).2.2.2.2.2.1, (hagree c).2.2.2.2.2.2]
    exact network_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
